-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x4096 .f32
  ∧ IdealRules.sign_bit.Statement Cert.KernelIdeal.S512x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S512x4096 : Shape := ⟨2, ![512, 4096]⟩
abbrev S1x4096 : Shape := ⟨2, ![1, 4096]⟩
abbrev S256x4096 : Shape := ⟨2, ![256, 4096]⟩
abbrev S1024x4096 : Shape := ⟨2, ![1024, 4096]⟩
abbrev S1x1024 : Shape := ⟨2, ![1, 1024]⟩
abbrev S256x1024 : Shape := ⟨2, ![256, 1024]⟩

abbrev nBuf : Space → Nat
  | .hbm => 7
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S256x4096, .bf16⟩
  | .local _ .vmem, ⟨9, _⟩ => ⟨S256x4096, .bf16⟩
  | .local _ .vmem, ⟨10, _⟩ => ⟨S1024x4096, .bf16⟩
  | .local _ .vmem, ⟨11, _⟩ => ⟨S1024x4096, .bf16⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .bf16 = 32 ∨ (Rect.block (s := S8192x4096) S256x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S4096x4096.size a
  hwx2_1 : ∀ i : grid2.Coords, EltTy.bits .bf16 = 32 ∨ (Rect.block (s := S4096x4096) S1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S8192x4096.size a
  hwx2_3 : ∀ i : grid2.Coords, EltTy.bits .f32 = 32 ∨ (Rect.block (s := S8192x4096) S256x1024.size (cc2_transform_3 i) (hinb2_3 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.WholeRun.lean ====
import proofs.«153069_j30511447670910_2_alg».proof.Proof.Gen.KernelIdeal.Frame

/-!
  The whole program's run, with the result array named.

  The program is three passes with one host reshape before the last. Every weakly fair execution from a launch
  memory `m` ends, and the memory it ends in holds, at every buffer the passes do not scope, the contents obtained by
  folding the passes' write-backs and the reshape over `m` in program order. Read at the three arguments that fold
  gives back `m`; read at the result buffer it gives the last pass's output array, which the later modules evaluate.
-/

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last fold's contents
    and the three arguments end as launched. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.WholeRun

end
-- ==== Proof.SignRows.lean ====
import proofs.«153069_j30511447670910_2_alg».proof.Proof.Gen.KernelIdeal.Frame
import Idealize.ShloMosaic.Lib.Pipeline.Value
import Idealize.ShloMosaic.Lib.ValueIdx
import Idealize.ShloMosaic.PureOps.Ideal.Laws

/-!
  The first binarizing pass, read as a whole array.

  The pass walks the rows of its argument in 16 blocks of 512 rows (each block all 4096 columns wide) and
  writes, block by block, the sign of every entry. Block `t` of the output is rows `512 t … 512 t + 511`, the
  same rows the input block at `t` holds; the 16 blocks tile the 8192 rows. So after the pass the output array
  holds `sign (x i)` at every index `i`, whatever the array `x` was when the pass began.
-/

set_option maxRecDepth 16384

noncomputable section

namespace Cert.KernelIdeal.SignRows

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset of a whole-block access. -/
theorem origin : (![0, 0] : Fin 2 → Nat) = fun _ => 0 := funext fun a => by fin_cases a <;> rfl

/-- The stored value of the pass is the sign of the loaded block, entry by entry: where `|v| > 0` it is `-1` or
    `1` by `v < 0`, and at zero it is `v` itself, which is `0`. -/
theorem stored_eq_sign (v : Vec Ideal S512x4096 .f32) : k0_pay1 (F := Ideal) v = fun i => Ideal.sign (v i) :=
  funext fun i => Ideal.jnp_sign_eq_sign_f32 (v i)

/-- The block indices over the 16 grid points: input and output move together, one block of rows per point. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the array of signs. -/
theorem written_block (c : Dev nD) (t : Fin cfg0.N) :
    (dat0 V c).flushed 1 t = ((cfg0.win 1).blk t).view.read (Elt Ideal) (fun i => Ideal.sign (V c main_arg0 i)) := by
  show (cfg0.win 1).cut (grid0.coords t) ((dat0 V c).after 1 t) = _
  rw [after0_1]
  unfold out0_1
  rw [View.canon_unit_zero origin]
  simp only [View.ld_unit_zero (S := S512x4096) origin]
  rw [stored_eq_sign]
  obtain ⟨e0, e1, e2, e3⟩ := block_index t
  funext j
  show Ideal.sign (V c main_arg0 (((cfg0.win 0).blk t).view.emb j)) = Ideal.sign (V c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; rw [e0, e2]
    | ⟨1, _⟩ => show win0_0.index t (1 : Fin 2) * 4096 + 1 * (j 1).val = win0_1.index t (1 : Fin 2) * 4096 + 1 * (j 1).val; rw [e1, e3]
  rw [h0]

/-- An index lies in point `t`'s output block iff each coordinate is in the block's range. -/
theorem mem_block (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- Every row of the array is in some point's block: row `r` in block `r / 512`. -/
theorem covered (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  have hN : grid0.N = 16 := N_0
  let t : Fin cfg0.N := ⟨(i 0).val / 512, by show (i 0).val / 512 < grid0.N; omega⟩
  obtain ⟨_, _, e2, e3⟩ := block_index t
  have ht : t.val = (i 0).val / 512 := rfl
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- After the pass the output array is the array of signs of the input array as the pass found it. -/
theorem final (c : Dev nD) :
    (dat0 V c).arrAt 1 cfg0.N = fun i => Ideal.sign (V c main_arg0 i) :=
  (dat0 V c).arrAt_eq_of_cover 1 _ (fun t _ => written_block V c t) covered

end Cert.KernelIdeal.SignRows

end
-- ==== Proof.SignRowsW.lean ====
import proofs.«153069_j30511447670910_2_alg».proof.Proof.Gen.KernelIdeal.Frame
import Idealize.ShloMosaic.Lib.Pipeline.Value
import Idealize.ShloMosaic.Lib.ValueIdx
import Idealize.ShloMosaic.PureOps.Ideal.Laws

/-!
  The second binarizing pass (the weight matrix), read as a whole array.

  The pass walks the rows of the weight matrix in 8 blocks of 512 rows (each block all 4096 columns wide) and
  writes, block by block, the sign of every entry. Block `t` of the output is rows `512 t … 512 t + 511`, the
  same rows the input block at `t` holds; the 8 blocks tile the 4096 rows. So after the pass the output array
  holds `sign (w i)` at every index `i`, whatever the array `w` was when the pass began.
-/

set_option maxRecDepth 16384

noncomputable section

namespace Cert.KernelIdeal.SignRowsW

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset of a whole-block access. -/
theorem origin : (![0, 0] : Fin 2 → Nat) = fun _ => 0 := funext fun a => by fin_cases a <;> rfl

/-- The stored value of the pass is the sign of the loaded block, entry by entry: where `|v| > 0` it is `-1` or
    `1` by `v < 0`, and at zero it is `v` itself, which is `0`. -/
theorem stored_eq_sign (v : Vec Ideal S512x4096 .f32) : k1_pay1 (F := Ideal) v = fun i => Ideal.sign (v i) :=
  funext fun i => Ideal.jnp_sign_eq_sign_f32 (v i)

/-- The block indices over the 8 grid points: input and output move together, one block of rows per point. -/
theorem block_index : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the array of signs. -/
theorem written_block (c : Dev nD) (t : Fin cfg1.N) :
    (dat1 V c).flushed 1 t = ((cfg1.win 1).blk t).view.read (Elt Ideal) (fun i => Ideal.sign (V c main_arg1 i)) := by
  show (cfg1.win 1).cut (grid1.coords t) ((dat1 V c).after 1 t) = _
  rw [after1_1]
  unfold out1_1
  rw [View.canon_unit_zero origin]
  simp only [View.ld_unit_zero (S := S512x4096) origin]
  rw [stored_eq_sign]
  obtain ⟨e0, e1, e2, e3⟩ := block_index t
  funext j
  show Ideal.sign (V c main_arg1 (((cfg1.win 0).blk t).view.emb j)) = Ideal.sign (V c main_arg1 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 512 + 1 * (j 0).val = win1_1.index t (0 : Fin 2) * 512 + 1 * (j 0).val; rw [e0, e2]
    | ⟨1, _⟩ => show win1_0.index t (1 : Fin 2) * 4096 + 1 * (j 1).val = win1_1.index t (1 : Fin 2) * 4096 + 1 * (j 1).val; rw [e1, e3]
  rw [h0]

/-- An index lies in point `t`'s output block iff each coordinate is in the block's range. -/
theorem mem_block (t : Fin cfg1.N) (i : S4096x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_v1).slice (win1_1.rect t)).set ↔ _
  rw [View.set_slice_whole, Rect.mem_set_unit]
  exact Iff.rfl

/-- Every row of the array is in some point's block: row `r` in block `r / 512`. -/
theorem covered (i : S4096x4096.Idx) :
    ∃ t : Fin cfg1.N, (cfg1.win 1).flush t = true ∧ i ∈ ((cfg1.win 1).blk t).view.set := by
  have hi0 : (i 0).val < 4096 := (i 0).isLt
  have hi1 : (i 1).val < 4096 := (i 1).isLt
  have hN : grid1.N = 8 := N_1
  let t : Fin cfg1.N := ⟨(i 0).val / 512, by show (i 0).val / 512 < grid1.N; omega⟩
  obtain ⟨_, _, e2, e3⟩ := block_index t
  have ht : t.val = (i 0).val / 512 := rfl
  refine ⟨t, flush1_1 t, ?_⟩
  rw [mem_block]
  intro a
  match a with
  | ⟨0, _⟩ => show win1_1.index t (0 : Fin 2) * 512 ≤ (i 0).val ∧ (i 0).val < win1_1.index t (0 : Fin 2) * 512 + 512; omega
  | ⟨1, _⟩ => show win1_1.index t (1 : Fin 2) * 4096 ≤ (i 1).val ∧ (i 1).val < win1_1.index t (1 : Fin 2) * 4096 + 4096; omega

/-- After the pass the output array is the array of signs of the input array as the pass found it. -/
theorem final (c : Dev nD) :
    (dat1 V c).arrAt 1 cfg1.N = fun i => Ideal.sign (V c main_arg1 i) :=
  (dat1 V c).arrAt_eq_of_cover 1 _ (fun t _ => written_block V c t) covered

end Cert.KernelIdeal.SignRowsW

end
-- ==== Proof.RowDots.lean ====
import proofs.«153069_j30511447670910_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
  One block of the product pass, entry by entry.

  The body multiplies a block `l` of 256 rows of the binarized input (each of length 4096) by a block `r` of 1024
  rows of the binarized weights (each of length 4096), contracting the shared axis of length 4096 into a zero
  accumulator, and adds the bias row `b` (1 × 1024) to every row of the product. Over the extended reals the
  product into a zero accumulator is the plain sum, so entry `(p, q)` of the stored block is
  `∑ k, l (p, k) · r (q, k) + b (0, q)`.
-/

noncomputable section

namespace Cert.KernelIdeal.RowDots

open Cert.KernelIdeal Cert.KernelIdeal.Gen
open Idealize.ShloMosaic Idealize.ShloMosaic.ValueIdx Idealize.SL.Sem

/-- The left operand's row is the output's row … -/
theorem left_row (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
/-- … and its column the contracted position. -/
theorem left_col (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
/-- The right operand's row is the output's column … -/
theorem right_row (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
/-- … and its column the contracted position. -/
theorem right_col (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-- The matrix product into a zero accumulator, at entry `(p, q)`: the sum over the shared axis of row `p` of the left
    block times row `q` of the right block. -/
theorem product_at (l : FVec Ideal S256x4096 .bf16) (r : FVec Ideal S1024x4096 .bf16) (p : Fin 256) (q : Fin 1024) :
    matmul dot_S256x4096_S1024x4096_S256x1024_1_1_0_0_n_n none l r (constant S256x1024 .f32 0x00000000#32) (ix2 p q)
      = ∑ k : Fin 4096, l (ix2 p k) * r (ix2 q k) := by
  refine (Ideal.matmul_constant_zero_apply dot_S256x4096_S1024x4096_S256x1024_1_1_0_0_n_n none l r (ix2 p q)).trans ?_
  rw [← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p q) ((contrEquiv1 dot_S256x4096_S1024x4096_S256x1024_1_1_0_0_n_n 4096 rfl rfl).symm k) = ix2 p k := funext fun a => Fin.ext (by
    match a with
    | ⟨0, _⟩ => exact left_row _ _
    | ⟨1, _⟩ => exact (left_col _ _).trans hk)
  have er : dot_S256x4096_S1024x4096_S256x1024_1_1_0_0_n_n.rhsIdx (ix2 p q) ((contrEquiv1 dot_S256x4096_S1024x4096_S256x1024_1_1_0_0_n_n 4096 rfl rfl).symm k) = ix2 q k := funext fun a => Fin.ext (by
    match a with
    | ⟨0, _⟩ => exact right_row _ _
    | ⟨1, _⟩ => exact (right_col _ _).trans hk)
  rw [el, er]

/-- The stored block at entry `(p, q)`: the row-by-row dot product plus the bias at column `q`. -/
theorem stored_at (l : FVec Ideal S256x4096 .bf16) (r : FVec Ideal S1024x4096 .bf16) (b : FVec Ideal S1x1024 .f32)
    (p : Fin 256) (q : Fin 1024) :
    k2_pay1 (F := Ideal) l r b (ix2 p q) = (∑ k : Fin 4096, l (ix2 p k) * r (ix2 q k)) + b (ix2 (0 : Fin 1) q) := by
  unfold k2_pay1
  simp only [shapeCast_self]
  refine (addf_apply _ _ _).trans ?_
  exact congrArg₂ (· + ·) (product_at l r p q) (broadcastTo_1b_ab_apply b _ p q)

end Cert.KernelIdeal.RowDots

end
-- ==== Proof.SignedProduct.lean ====
import Idealize.ShloMosaic.PureOps.Ideal
import Idealize.ShloMosaic.Lib.ValueIdx

/-!
  What both programs compute, as one function of the three argument arrays.

  For an input `x` of 8192 rows and a weight matrix `w` of 4096 rows, each row of length 4096, and a bias vector
  `b` of length 4096, the result at row `r` and column `o` is

      ∑ k, sign (x (r, k)) · sign (w (o, k)) + b o

  over the extended reals, where `sign` is `-1`, `0` or `1` by the order (`-1` at `-∞`, `1` at `+∞`). It is stated
  in two steps: the table of row-by-row dot products of two arrays plus a bias row, and that table at the arrays of
  signs.
-/

noncomputable section

open scoped BigOperators

namespace Cert.SignedProduct

open Idealize.ShloMosaic Idealize.ShloMosaic.ValueIdx

/-- The row of an index of the 8192 × 4096 result, as a number below 8192. -/
abbrev rowOf (i : (⟨2, ![8192, 4096]⟩ : Shape).Idx) : Fin 8192 := ⟨(i 0).val, idx2_lt0 i⟩
/-- Its column, as a number below 4096. -/
abbrev colOf (i : (⟨2, ![8192, 4096]⟩ : Shape).Idx) : Fin 4096 := ⟨(i 1).val, idx2_lt1 i⟩

/-- Entry `(r, o)` is the dot product of row `r` of `X` with row `o` of `W`, plus the bias row's entry `o`. -/
def rowProducts (X : (⟨2, ![8192, 4096]⟩ : Shape).Idx → EReal) (W : (⟨2, ![4096, 4096]⟩ : Shape).Idx → EReal)
    (B : (⟨2, ![1, 4096]⟩ : Shape).Idx → EReal) : (⟨2, ![8192, 4096]⟩ : Shape).Idx → EReal :=
  fun i => (∑ k : Fin 4096, X (ix2 (rowOf i) k) * W (ix2 (colOf i) k)) + B (ix2 (0 : Fin 1) (colOf i))

/-- The result: the dot products of the rows of signs, plus the bias. -/
def result (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, Ideal.sign (x (ix2 (rowOf i) k)) * Ideal.sign (w (ix2 (colOf i) k))) + b (ix1 (colOf i))

/-- The table of dot products at the arrays of signs, with a bias row that reads the bias vector, is the result. -/
theorem rowProducts_signs (x : (⟨2, ![8192, 4096]⟩ : Shape).Idx → EReal) (w : (⟨2, ![4096, 4096]⟩ : Shape).Idx → EReal)
    (b : (⟨1, ![4096]⟩ : Shape).Idx → EReal) (B : (⟨2, ![1, 4096]⟩ : Shape).Idx → EReal)
    (hB : ∀ q : Fin 4096, B (ix2 (0 : Fin 1) q) = b (ix1 q)) :
    rowProducts (fun i => Ideal.sign (x i)) (fun i => Ideal.sign (w i)) B = result x w b :=
  funext fun i => by
    unfold rowProducts result
    rw [hB]

end Cert.SignedProduct

end
-- ==== Proof.Products.lean ====
import proofs.«153069_j30511447670910_2_alg».proof.Proof.Gen.KernelIdeal.Frame
import proofs.«153069_j30511447670910_2_alg».proof.Proof.RowDots
import proofs.«153069_j30511447670910_2_alg».proof.Proof.SignedProduct
import Idealize.ShloMosaic.Lib.Pipeline.Value
import Idealize.ShloMosaic.Lib.ValueIdx

/-!
  The product pass, read as a whole array.

  The pass runs over a 4 × 32 grid, the column blocks outermost: point `t` is column block `t / 32` (1024 columns of
  the result, that is 1024 rows of the binarized weights and 1024 bias entries) and row block `t % 32` (256 rows of
  the result and of the binarized input). Its output block is rows `256 (t % 32) …` and columns `1024 (t / 32) …` of
  the result, and entry `(p, q)` of it is the dot product of input row `256 (t % 32) + p` with weight row
  `1024 (t / 32) + q` plus bias entry `1024 (t / 32) + q`: block `t` of ONE table of dot products of the arrays the
  pass found. The 128 blocks tile the 8192 × 4096 result, so the result array ends as that table.
-/

set_option maxRecDepth 16384

noncomputable section

namespace Cert.KernelIdeal.Products

open Cert.KernelIdeal Cert.KernelIdeal.Gen Cert.SignedProduct
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset of a whole-block access. -/
theorem origin : (![0, 0] : Fin 2 → Nat) = fun _ => 0 := funext fun a => by fin_cases a <;> rfl

/-- The block indices over the 128 grid points: the input's rows and the output's rows by `t % 32`, the weights'
    rows, the bias's columns and the output's columns by `t / 32`. -/
theorem block_index : ∀ t : Fin cfg2.N,
    win2_0.index t (0 : Fin 2) = t.val % 32 ∧ win2_0.index t (1 : Fin 2) = 0
    ∧ win2_1.index t (0 : Fin 2) = t.val / 32 ∧ win2_1.index t (1 : Fin 2) = 0
    ∧ win2_2.index t (0 : Fin 2) = 0 ∧ win2_2.index t (1 : Fin 2) = t.val / 32
    ∧ win2_3.index t (0 : Fin 2) = t.val % 32 ∧ win2_3.index t (1 : Fin 2) = t.val / 32 :=
  (by decide +kernel : ∀ t : Fin grid2.N, _)

/-- What point `t` writes back is block `t` of the table of dot products of the arrays the pass found. -/
theorem written_block (c : Dev nD) (t : Fin cfg2.N) :
    (dat2 V c).flushed 3 t
      = ((cfg2.win 3).blk t).view.read (Elt Ideal) (rowProducts (V c main_v0) (V c main_v1) (V c main_v2)) := by
  show (cfg2.win 3).cut (grid2.coords t) ((dat2 V c).after 3 t) = _
  rw [after2_3]
  unfold out2_3
  rw [View.canon_unit_zero origin]
  simp only [View.ld_unit_zero (S := S256x4096) origin, View.ld_unit_zero (S := S1024x4096) origin,
    View.ld_unit_zero (S := S1x1024) origin]
  obtain ⟨a0, a1, b0, b1, d0, d1, o0, o1⟩ := block_index t
  funext j
  obtain ⟨p, q, rfl⟩ : ∃ (p : Fin 256) (q : Fin 1024), j = ix2 p q := ⟨j 0, j 1, eq_ix2 j⟩
  show k2_pay1 (iblk2 V c 0 t) (iblk2 V c 1 t) (iblk2 V c 2 t) (ix2 p q)
    = rowProducts (V c main_v0) (V c main_v1) (V c main_v2) (((cfg2.win 3).blk t).view.emb (ix2 p q))
  refine (RowDots.stored_at (iblk2 V c 0 t) (iblk2 V c 1 t) (iblk2 V c 2 t) p q).trans ?_
  have hx : ∀ k : Fin 4096, iblk2 V c 0 t (ix2 p k)
      = V c main_v0 (ix2 (rowOf (((cfg2.win 3).blk t).view.emb (ix2 p q))) k) := fun k => by
    show V c main_v0 (((cfg2.win 0).blk t).view.emb (ix2 p k)) = _
    refine congrArg (V c main_v0) (funext fun a => Fin.ext ?_)
    match a with
    | ⟨0, _⟩ => show win2_0.index t (0 : Fin 2) * 256 + 1 * p.val = win2_3.index t (0 : Fin 2) * 256 + 1 * p.val; rw [a0, o0]
    | ⟨1, _⟩ => show win2_0.index t (1 : Fin 2) * 4096 + 1 * k.val = k.val; rw [a1]; omega
  have hw : ∀ k : Fin 4096, iblk2 V c 1 t (ix2 q k)
      = V c main_v1 (ix2 (colOf (((cfg2.win 3).blk t).view.emb (ix2 p q))) k) := fun k => by
    show V c main_v1 (((cfg2.win 1).blk t).view.emb (ix2 q k)) = _
    refine congrArg (V c main_v1) (funext fun a => Fin.ext ?_)
    match a with
    | ⟨0, _⟩ => show win2_1.index t (0 : Fin 2) * 1024 + 1 * q.val = win2_3.index t (1 : Fin 2) * 1024 + 1 * q.val; rw [b0, o1]
    | ⟨1, _⟩ => show win2_1.index t (1 : Fin 2) * 4096 + 1 * k.val = k.val; rw [b1]; omega
  have hb : iblk2 V c 2 t (ix2 (0 : Fin 1) q)
      = V c main_v2 (ix2 (0 : Fin 1) (colOf (((cfg2.win 3).blk t).view.emb (ix2 p q)))) := by
    show V c main_v2 (((cfg2.win 2).blk t).view.emb (ix2 (0 : Fin 1) q)) = _
    refine congrArg (V c main_v2) (funext fun a => Fin.ext ?_)
    match a with
    | ⟨0, _⟩ => show win2_2.index t (0 : Fin 2) * 1 + 1 * 0 = 0; rw [d0]
    | ⟨1, _⟩ => show win2_2.index t (1 : Fin 2) * 1024 + 1 * q.val = win2_3.index t (1 : Fin 2) * 1024 + 1 * q.val; rw [d1, o1]
  exact congrArg₂ (· + ·) (Finset.sum_congr rfl fun k _ => congrArg₂ (· * ·) (hx k) (hw k)) hb

/-- An index lies in point `t`'s output block iff each coordinate is in the block's range. -/
theorem mem_block (t : Fin cfg2.N) (i : S8192x4096.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v3).slice (win2_3.rect t)).set ↔ _
  rw [View.set_slice_whole, Rect.mem_set_unit]
  exact Iff.rfl

/-- Every entry of the result is in some point's block: row `r`, column `o` in the block of point
    `32 (o / 1024) + r / 256`. -/
theorem covered (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  have hN : grid2.N = 128 := N_2
  let t : Fin cfg2.N := ⟨32 * ((i 1).val / 1024) + (i 0).val / 256, by show 32 * ((i 1).val / 1024) + (i 0).val / 256 < grid2.N; omega⟩
  obtain ⟨_, _, _, _, _, _, o0, o1⟩ := block_index t
  have ht : t.val = 32 * ((i 1).val / 1024) + (i 0).val / 256 := rfl
  refine ⟨t, flush2_3 t, ?_⟩
  rw [mem_block]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 1024 ≤ (i 1).val ∧ (i 1).val < win2_3.index t (1 : Fin 2) * 1024 + 1024; omega

/-- After the pass the result array is the table of dot products of the arrays the pass found. -/
theorem final (c : Dev nD) :
    (dat2 V c).arrAt 3 cfg2.N = rowProducts (V c main_v0) (V c main_v1) (V c main_v2) :=
  (dat2 V c).arrAt_eq_of_cover 3 _ (fun t _ => written_block V c t) covered

end Cert.KernelIdeal.Products

end
-- ==== Proof.ResultArray.lean ====
import proofs.«153069_j30511447670910_2_alg».proof.Proof.Gen.KernelIdeal.Frame
import proofs.«153069_j30511447670910_2_alg».proof.Proof.SignRows
import proofs.«153069_j30511447670910_2_alg».proof.Proof.SignRowsW
import proofs.«153069_j30511447670910_2_alg».proof.Proof.Products
import proofs.«153069_j30511447670910_2_alg».proof.Proof.SignedProduct
import Idealize.ShloMosaic.Lib.StableHlo.Run
import Idealize.ShloMosaic.Lib.ValueLayout

/-!
  The result buffer after the whole program, as a function of the launch memory.

  The last pass leaves the table of dot products of the three arrays it found. The first of them is what the first
  pass left in its output (the second pass and the reshape do not touch it): the signs of the input argument. The
  second is what the second pass left: the signs of the weight argument, which the first pass did not touch. The third
  is the bias argument (untouched by the two passes) reshaped from a vector to a one-row matrix, whose entry `(0, o)`
  is the vector's entry `o`. So the result buffer ends as the signed product of the three arguments.
-/

set_option maxRecDepth 16384

noncomputable section

namespace Cert.KernelIdeal.ResultArray

open Cert.KernelIdeal Cert.KernelIdeal.Gen Cert.SignedProduct
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The last pass finds, as its first array, the signs of the input argument. -/
theorem found_input (c : Dev nD) :
    V3 m ρ c main_v0 = fun i => Ideal.sign (m ((c : Thread nD τ).loc main_arg0) i) :=
  calc W3 m ρ c (Proc.devRef .tc main_v0)
    _ = W2 m ρ c (Proc.devRef .tc main_v0) := by
          show StableHlo.after hostOps2 (W2 m ρ c) (Proc.devRef .tc main_v0) = _
          dsimp only [hostOps2]
          after_results
    _ = W1 m ρ c (Proc.devRef .tc main_v0) := W2_of_ne m ρ c main_v0 (by decide)
    _ = (dat0 (V0 m ρ) c).arrAt 1 cfg0.N := W1_arr m ρ c 1
    _ = fun i => Ideal.sign (V0 m ρ c main_arg0 i) := SignRows.final (V0 m ρ) c
    _ = fun i => Ideal.sign (m ((c : Thread nD τ).loc main_arg0) i) := rfl

/-- The weight argument is as launched when the second pass begins. -/
theorem weights_kept (c : Dev nD) : V1 m ρ c main_arg1 = m ((c : Thread nD τ).loc main_arg1) :=
  calc W1 m ρ c (Proc.devRef .tc main_arg1)
    _ = W0 m ρ c (Proc.devRef .tc main_arg1) := W1_of_ne m ρ c main_arg1 (by decide)
    _ = m ((c : Thread nD τ).loc main_arg1) := rfl

/-- The last pass finds, as its second array, the signs of the weight argument. -/
theorem found_weights (c : Dev nD) :
    V3 m ρ c main_v1 = fun i => Ideal.sign (m ((c : Thread nD τ).loc main_arg1) i) :=
  calc W3 m ρ c (Proc.devRef .tc main_v1)
    _ = W2 m ρ c (Proc.devRef .tc main_v1) := by
          show StableHlo.after hostOps2 (W2 m ρ c) (Proc.devRef .tc main_v1) = _
          dsimp only [hostOps2]
          after_results
    _ = (dat1 (V1 m ρ) c).arrAt 1 cfg1.N := W2_arr m ρ c 1
    _ = fun i => Ideal.sign (V1 m ρ c main_arg1 i) := SignRowsW.final (V1 m ρ) c
    _ = fun i => Ideal.sign (m ((c : Thread nD τ).loc main_arg1) i) := by rw [weights_kept]

/-- The bias argument is as launched when the reshape reads it. -/
theorem bias_kept (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The last pass finds, as its third array, the bias vector as a one-row matrix. -/
theorem found_bias (c : Dev nD) (q : Fin 4096) :
    V3 m ρ c main_v2 (ix2 (0 : Fin 1) q) = m ((c : Thread nD τ).loc main_arg2) (ix1 q) := by
  have e : V3 m ρ c main_v2
      = shapeCast S1x4096 (W2 m ρ c (Proc.devRef .tc main_arg2)) Facts₀.shapeCasts_S4096_S1x4096 := by
    show StableHlo.after hostOps2 (W2 m ρ c) (Proc.devRef .tc main_v2) = _
    dsimp only [hostOps2]
    after_results
    rfl
  rw [e, bias_kept]
  exact shapeCast_a_1a_apply _ _ 0 q

/-- The result buffer after the last pass is the signed product of the three arguments as launched. -/
theorem result_eq (c : Dev nD) :
    W4 m ρ c (Proc.devRef .tc main_v3)
      = result (m ((c : Thread nD τ).loc main_arg0)) (m ((c : Thread nD τ).loc main_arg1)) (m ((c : Thread nD τ).loc main_arg2)) :=
  calc W4 m ρ c (Proc.devRef .tc main_v3)
    _ = (dat2 (V3 m ρ) c).arrAt 3 cfg2.N := W4_arr m ρ c 3
    _ = rowProducts (V3 m ρ c main_v0) (V3 m ρ c main_v1) (V3 m ρ c main_v2) := Products.final (V3 m ρ) c
    _ = rowProducts (fun i => Ideal.sign (m ((c : Thread nD τ).loc main_arg0) i))
          (fun i => Ideal.sign (m ((c : Thread nD τ).loc main_arg1) i)) (V3 m ρ c main_v2) := by
          rw [found_input, found_weights]
          rfl
    _ = result (m ((c : Thread nD τ).loc main_arg0)) (m ((c : Thread nD τ).loc main_arg1)) (m ((c : Thread nD τ).loc main_arg2)) :=
          rowProducts_signs _ _ _ _ (found_bias m ρ c)

end Cert.KernelIdeal.ResultArray

end
-- ==== Proof.EntryByEntry.lean ====
import proofs.«153069_j30511447670910_2_alg».proof.Proof.Gen.ReferenceIdeal.Read
import proofs.«153069_j30511447670910_2_alg».proof.Proof.SignedProduct

/-!
  The reference, entry by entry, is the signed product.

  The reference takes the sign of the input and of the weights on the host, contracts the two arrays of signs along
  their second axes in one product, and adds the bias vector broadcast first to a row and then to every row. Read at
  row `r` and column `o` that is `∑ k, sign (x (r, k)) · sign (w (o, k)) + b o`.
-/

noncomputable section

namespace Cert.ReferenceIdeal.EntryByEntry

open Cert.ReferenceIdeal Cert.ReferenceIdeal.Gen Cert.SignedProduct
open Idealize.ShloMosaic Idealize.ShloMosaic.ValueIdx Idealize.SL.Sem

/-- The reference's result as a function of its three arguments is the signed product of them. -/
theorem value_eq (x : (⟨S8192x4096, .f32⟩ : BufTy).Contents (Elt Ideal)) (w : (⟨S4096x4096, .f32⟩ : BufTy).Contents (Elt Ideal))
    (b : (⟨S4096, .f32⟩ : BufTy).Contents (Elt Ideal)) :
    Read.val_main_v5 (F := Ideal) x w b = result x w b := by
  funext i
  have el : ∀ k : Fin 4096, Read.lidx_main_v2 i k = ix2 (rowOf i) k := fun k => funext fun a => Fin.ext (by
    match a with
    | ⟨0, _⟩ => rfl
    | ⟨1, _⟩ => rfl)
  have er : ∀ k : Fin 4096, Read.ridx_main_v2 i k = ix2 (colOf i) k := fun k => funext fun a => Fin.ext (by
    match a with
    | ⟨0, _⟩ => rfl
    | ⟨1, _⟩ => rfl)
  have eb : Read.idx_main_v3 (Read.idx_main_v4 i) = ix1 (colOf i) := funext fun a => Fin.ext (by
    match a with
    | ⟨0, _⟩ => rfl)
  rw [Read.val_main_v5_apply, Read.val_main_v2_apply, Read.val_main_v4_apply, Read.val_main_v3_apply, eb]
  simp only [Read.val_main_v0_apply, Read.val_main_v1_apply, el, er]
  rfl

end Cert.ReferenceIdeal.EntryByEntry

end
-- ==== Proof.lean ====
/-
  A sign-binarized linear layer: `sign(x) · sign(W)ᵀ + b` for `x` of 8192 rows, `W` of 4096 rows (rows of length
  4096) and `b` of length 4096.

  The kernel runs three passes: it writes the signs of `x`, then the signs of `W`, each block of 512 rows at a time,
  and then, over a 4 × 32 grid of blocks of 256 rows by 1024 columns, multiplies a block of rows of the first by a
  block of rows of the second along their common axis and adds the matching stretch of the bias. The reference takes
  both signs on the host, contracts them in one product and adds the broadcast bias.

  Over the extended reals both end with the same array: at row `r` and column `o`,
  `∑ k, sign (x (r, k)) · sign (w (o, k)) + b o` (`Cert.SignedProduct.result`). No algebraic law beyond reading both
  sides at an index is needed — the kernel's blocks are restrictions of that one function and tile the result — and
  the finiteness of the inputs is never used: `sign` is `∓1` at the infinities on both sides.

  The kernel's sign reads the sign bit of the word; its idealization compares with zero instead, and the two
  `preserves` conjuncts are that rule's statement at the two binarizing passes.
-/
import proofs.«153069_j30511447670910_2_alg».proof.Defs
import proofs.«153069_j30511447670910_2_alg».proof.Proof.Gen.Kernel
import proofs.«153069_j30511447670910_2_alg».proof.Proof.Gen.Kernel.Frame
import proofs.«153069_j30511447670910_2_alg».proof.Proof.Gen.KernelIdeal
import proofs.«153069_j30511447670910_2_alg».proof.Proof.Gen.KernelIdeal.Frame
import proofs.«153069_j30511447670910_2_alg».proof.Proof.Gen.ReferenceIdeal
import proofs.«153069_j30511447670910_2_alg».proof.Proof.Gen.Pre_finite_inputs
import proofs.«153069_j30511447670910_2_alg».proof.Proof.Gen.ReferenceIdeal.Run
import proofs.«153069_j30511447670910_2_alg».proof.Proof.Gen.ReferenceIdeal.Read
import proofs.«153069_j30511447670910_2_alg».proof.Proof.WholeRun
import proofs.«153069_j30511447670910_2_alg».proof.Proof.ResultArray
import proofs.«153069_j30511447670910_2_alg».proof.Proof.EntryByEntry
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both binarizing passes read the sign bit; idealized, each compares with zero: the rule's statement, twice. -/
theorem preserves : Cert.preserves_Kernel_KernelIdeal :=
  ⟨IdealRules.sign_bit.statement Cert.KernelIdeal.S512x4096 .f32, IdealRules.sign_bit.statement Cert.KernelIdeal.S512x4096 .f32⟩

/-- From memories that agree on the three arguments, the idealized kernel and the reference both end with the
    signed product of those arguments in their result buffers. -/
theorem algebraic : Cert.algebraic_KernelIdeal_ReferenceIdeal := by
  intro m ρ m' ρ' _ hagree
  refine ⟨fun c => Cert.SignedProduct.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.ResultArray.result_eq m ρ c), (h c).2⟩)
      (Cert.KernelIdeal.WholeRun.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v5_eq, Cert.ReferenceIdeal.EntryByEntry.value_eq,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
